-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x2 .f32) (main_arg9 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 62
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x64, .f32⟩
  | .hbm, ⟨60, _⟩ => ⟨S1x2, .f32⟩
  | .hbm, ⟨61, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S50000x2.size a
  hwx1_7 : ∀ i : grid1.Coords, EltTy.bits .f32 = 32 ∨ (Rect.block (s := S50000x2) S5000x2.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x2 : Shape := ⟨2, ![50000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S50000x2, .f32⟩
  | .hbm, ⟨83, _⟩ => ⟨S1x2, .f32⟩
  | .hbm, ⟨84, _⟩ => ⟨S50000x2, .f32⟩
  | .hbm, ⟨85, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KRun.lean ====
import proofs.«136047_j14465449853060_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The kernel program's run, with the result buffer named

Every fair execution of the kernel program ends; at the end the result buffer of each core holds what the second
region's write-backs leave there (the contents `W4` of the last segment boundary, read at the result's reference),
and each of the ten argument buffers holds what it held at the launch. -/

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with every counter at zero, every weakly fair execution of the program on the cores ends
    without a fault, and in every final state the result buffer of core `c` holds the contents the last segment
    boundary gives it — what the second region's write-backs leave — while each argument buffer holds what it held at
    the launch: the final state agrees with the last boundary's contents on every buffer that outlives the regions, the
    result's among them, and the boundary's contents at an argument walk back to the launch memory. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.HostValue

end
-- ==== Proof.KHost.lean ====
import proofs.«136047_j14465449853060_1_alg».proof.Proof.Gen.KernelIdeal.Frame
import Idealize.ShloMosaic.Lib.StableHlo.Run
import Idealize.ShloMosaic.PureOps.Ideal

/-! # The kernel program's host stretches, read as functions of the launch memory

Before each region the host lines prepare the region's inputs: the rows of the features are gathered along the edges'
sources, added up at the edges' targets, and multiplied entry by entry by the reciprocal of `max (count, 1)`, the
count of a node being the number of edges that end at it. Here each buffer a region reads at its entry is written as
that composed term of the launch memory (first stretch) or of the first region's result and the launch memory (second
stretch). -/

set_option maxRecDepth 16384

noncomputable section

namespace Cert.KernelIdeal.HostValue

open Cert.KernelIdeal Cert.KernelIdeal.Gen Idealize.ShloMosaic Idealize.ShloMosaic.TcCoe Idealize.SL.Sem

/-- The source column: the edges' sources (row 0 of the edge array), a source below zero wrapped by the node count,
    as a column. -/
def srcCol (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt
        (shapeCast S800000 (extractStridedSlice S1x800000 ![0, 0] e slices_S2x800000_S1x800000_0_0) shapeCasts_S1x800000_S800000)
        (broadcastInDim S800000 ![] bcast_S_S800000 (constantI S_ 32 0#32)))
      (addi
        (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The target column: the edges' targets (row 1 of the edge array), as a column. -/
def dstCol (e : (⟨S2x800000, .i32⟩ : BufTy).Contents (Elt Ideal)) : (⟨S800000x1, .i32⟩ : BufTy).Contents (Elt Ideal) :=
  broadcastInDim S800000x1 ![0] bcast_S800000_S800000x1_0
    (shapeCast S800000 (extractStridedSlice S1x800000 ![1, 0] e slices_S2x800000_S1x800000_1_0) shapeCasts_S1x800000_S800000)

/-- The aggregate: the rows of `h` gathered along the sources and added up at the targets, from zero. -/
def agg (e : (⟨S2x800000, .i32⟩ : BufTy).Contents (Elt Ideal)) (h : (⟨S50000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (dstCol e)
    (Host.gather gather_S50000x64_S800000x1_S800000x64_1_0_n_n_0_1_164 h (srcCol e))

/-- The count: a one added at the target of every edge, from zero. -/
def cnt (e : (⟨S2x800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (dstCol e)
    (broadcastInDim S800000 ![] bcast_S_S800000 (constant (F := Ideal) S_ .f32 0x3F800000#32))

/-- The scale: `1 / max (count, 1)` of each node, spread along its row. -/
def inv (e : (⟨S2x800000, .i32⟩ : BufTy).Contents (Elt Ideal)) : (⟨S50000x64, .f32⟩ : BufTy).Contents (Elt Ideal) :=
  broadcastInDim S50000x64 ![0, 1] bcast_S50000x1_S50000x64_0_1
    (broadcastInDim S50000x1 ![0] bcast_S50000_S50000x1_0
      (Host.divf (broadcastInDim S50000 ![] bcast_S_S50000 (constant (F := Ideal) S_ .f32 0x3F800000#32))
        (maximumf (cnt e) (broadcastInDim S50000 ![] bcast_S_S50000 (constant (F := Ideal) S_ .f32 0x3F800000#32)))))

variable (m : (ℓ : Loc nD τ sig) → Buf (Elt Ideal) ℓ) (ρ : Dev nD → PrngReg)

/-! ## The first stretch: the first region's inputs, of the launch memory -/

/-- The first region's aggregated input is the aggregate of the features along the edges, times the scale. -/
theorem V1_v24 (c : Dev nD) :
    (V1 (F := Ideal) m ρ c main_v24 : S50000x64.Idx → EReal)
      = mulf (F := Ideal) (s := S50000x64) (φ := .f32)
          (agg (m ((c.tc : Thread nD τ).loc main_arg1)) (m ((c.tc : Thread nD τ).loc main_arg0)))
          (inv (m ((c.tc : Thread nD τ).loc main_arg1))) := by
  show StableHlo.after hostOps0 (W0 m ρ c) (Proc.devRef .tc main_v24) = _
  after_results_simp
  rfl

/-- The first region's bias input is the first bias as one row. -/
theorem V1_v25 (c : Dev nD) :
    (V1 (F := Ideal) m ρ c main_v25 : S1x64.Idx → EReal)
      = shapeCast S1x64 (m ((c.tc : Thread nD τ).loc main_arg3)) shapeCasts_S64_S1x64 := by
  show StableHlo.after hostOps0 (W0 m ρ c) (Proc.devRef .tc main_v25) = _
  after_results_simp
  rfl

/-- No line of the first stretch writes the features. -/
theorem V1_arg0 (c : Dev nD) : V1 (F := Ideal) m ρ c main_arg0 = m ((c.tc : Thread nD τ).loc main_arg0) := by
  show StableHlo.after hostOps0 (W0 m ρ c) (Proc.devRef .tc main_arg0) = _
  after_results_simp

/-- No line of the first stretch writes the first layer's weight on the aggregate. -/
theorem V1_arg2 (c : Dev nD) : V1 (F := Ideal) m ρ c main_arg2 = m ((c.tc : Thread nD τ).loc main_arg2) := by
  show StableHlo.after hostOps0 (W0 m ρ c) (Proc.devRef .tc main_arg2) = _
  after_results_simp

/-- No line of the first stretch writes the first layer's weight on the node's own row. -/
theorem V1_arg4 (c : Dev nD) : V1 (F := Ideal) m ρ c main_arg4 = m ((c.tc : Thread nD τ).loc main_arg4) := by
  show StableHlo.after hostOps0 (W0 m ρ c) (Proc.devRef .tc main_arg4) = _
  after_results_simp

/-! ## What the second stretch still reads of the first

The second stretch reads three buffers the first one wrote and the first region left alone — the sources and the
targets as rows, and the reciprocal of `max (count, 1)` as a column — besides the first region's result and the
arguments. -/

/-- The edges' sources as a row of the edge array. -/
def srcRow (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' targets as a row of the edge array. -/
def dstRow (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- `1 / max (count, 1)` of each node, as a column. -/
def invCol (e : (⟨S2x800000, .i32⟩ : BufTy).Contents (Elt Ideal)) : (⟨S50000x1, .f32⟩ : BufTy).Contents (Elt Ideal) :=
  broadcastInDim S50000x1 ![0] bcast_S50000_S50000x1_0
    (Host.divf (broadcastInDim S50000 ![] bcast_S_S50000 (constant (F := Ideal) S_ .f32 0x3F800000#32))
      (maximumf (cnt e) (broadcastInDim S50000 ![] bcast_S_S50000 (constant (F := Ideal) S_ .f32 0x3F800000#32))))

/-- After the first stretch the sources' row buffer holds row 0 of the edge array. -/
theorem W1_v1 (c : Dev nD) :
    (W1 (F := Ideal) m ρ c (Proc.devRef .tc main_v1) : S800000.Idx → BitVec 32) = srcRow (m ((c.tc : Thread nD τ).loc main_arg1)) := by
  show StableHlo.after hostOps0 (W0 m ρ c) (Proc.devRef .tc main_v1) = _
  after_results_simp
  rfl

/-- After the first stretch the targets' row buffer holds row 1 of the edge array. -/
theorem W1_v3 (c : Dev nD) :
    (W1 (F := Ideal) m ρ c (Proc.devRef .tc main_v3) : S800000.Idx → BitVec 32) = dstRow (m ((c.tc : Thread nD τ).loc main_arg1)) := by
  show StableHlo.after hostOps0 (W0 m ρ c) (Proc.devRef .tc main_v3) = _
  after_results_simp
  rfl

/-- After the first stretch the reciprocal column's buffer holds `1 / max (count, 1)` of each node. -/
theorem W1_v12 (c : Dev nD) :
    (W1 (F := Ideal) m ρ c (Proc.devRef .tc main_v12) : S50000x1.Idx → EReal) = invCol (m ((c.tc : Thread nD τ).loc main_arg1)) := by
  show StableHlo.after hostOps0 (W0 m ρ c) (Proc.devRef .tc main_v12) = _
  after_results_simp
  rfl

/-- No line of the first stretch writes an argument: the five the second region's inputs come from. -/
theorem W1_arg5 (c : Dev nD) : W1 (F := Ideal) m ρ c (Proc.devRef .tc main_arg5) = m ((c.tc : Thread nD τ).loc main_arg5) := by
  show StableHlo.after hostOps0 (W0 m ρ c) (Proc.devRef .tc main_arg5) = _
  after_results_simp
theorem W1_arg6 (c : Dev nD) : W1 (F := Ideal) m ρ c (Proc.devRef .tc main_arg6) = m ((c.tc : Thread nD τ).loc main_arg6) := by
  show StableHlo.after hostOps0 (W0 m ρ c) (Proc.devRef .tc main_arg6) = _
  after_results_simp
theorem W1_arg7 (c : Dev nD) : W1 (F := Ideal) m ρ c (Proc.devRef .tc main_arg7) = m ((c.tc : Thread nD τ).loc main_arg7) := by
  show StableHlo.after hostOps0 (W0 m ρ c) (Proc.devRef .tc main_arg7) = _
  after_results_simp
theorem W1_arg8 (c : Dev nD) : W1 (F := Ideal) m ρ c (Proc.devRef .tc main_arg8) = m ((c.tc : Thread nD τ).loc main_arg8) := by
  show StableHlo.after hostOps0 (W0 m ρ c) (Proc.devRef .tc main_arg8) = _
  after_results_simp
theorem W1_arg9 (c : Dev nD) : W1 (F := Ideal) m ρ c (Proc.devRef .tc main_arg9) = m ((c.tc : Thread nD τ).loc main_arg9) := by
  show StableHlo.after hostOps0 (W0 m ρ c) (Proc.devRef .tc main_arg9) = _
  after_results_simp

/-! ## The second stretch, from any contents

The lines of the second stretch, read at each buffer the second region takes, as a term of the contents `Wv` the
stretch starts from. -/

section Stretch1
variable (Wv : Valuation τ sig (Elt Ideal))

/-- The second stretch repeats the first's aggregation on the hidden features `H`: from contents that hold `H`, the
    two rows of the edge array `e` and the reciprocal column, it leaves the aggregate of `H` times the scale. -/
theorem after1_v38 (e : (⟨S2x800000, .i32⟩ : BufTy).Contents (Elt Ideal)) (H : (⟨S50000x64, .f32⟩ : BufTy).Contents (Elt Ideal))
    (h26 : (Wv (Proc.devRef .tc main_v26) : S50000x64.Idx → EReal) = H)
    (h1 : (Wv (Proc.devRef .tc main_v1) : S800000.Idx → BitVec 32) = srcRow e)
    (h3 : (Wv (Proc.devRef .tc main_v3) : S800000.Idx → BitVec 32) = dstRow e)
    (h12 : (Wv (Proc.devRef .tc main_v12) : S50000x1.Idx → EReal) = invCol e) :
    (StableHlo.after hostOps1 Wv (Proc.devRef .tc main_v38) : S50000x64.Idx → EReal)
      = mulf (F := Ideal) (s := S50000x64) (φ := .f32) (agg e H) (inv e) := by
  after_results_simp
  rw [h26, h1, h3, h12]
  rfl

/-- The second stretch leaves the second bias as one row. -/
theorem after1_v39 :
    (StableHlo.after hostOps1 Wv (Proc.devRef .tc main_v39) : S1x64.Idx → EReal)
      = shapeCast S1x64 (Wv (Proc.devRef .tc main_arg6)) shapeCasts_S64_S1x64 := by
  after_results_simp
  rfl

/-- The second stretch leaves the final linear map's bias as one row. -/
theorem after1_v40 :
    (StableHlo.after hostOps1 Wv (Proc.devRef .tc main_v40) : S1x2.Idx → EReal)
      = shapeCast S1x2 (Wv (Proc.devRef .tc main_arg9)) shapeCasts_S2_S1x2 := by
  after_results_simp
  rfl

/-- No line of the second stretch writes the hidden features, nor the three weights the second region reads. -/
theorem after1_v26 : StableHlo.after hostOps1 Wv (Proc.devRef .tc main_v26) = Wv (Proc.devRef .tc main_v26) := by
  after_results_simp
theorem after1_arg5 : StableHlo.after hostOps1 Wv (Proc.devRef .tc main_arg5) = Wv (Proc.devRef .tc main_arg5) := by
  after_results_simp
theorem after1_arg7 : StableHlo.after hostOps1 Wv (Proc.devRef .tc main_arg7) = Wv (Proc.devRef .tc main_arg7) := by
  after_results_simp
theorem after1_arg8 : StableHlo.after hostOps1 Wv (Proc.devRef .tc main_arg8) = Wv (Proc.devRef .tc main_arg8) := by
  after_results_simp

end Stretch1

/-! ## The second stretch: the second region's inputs, of the first region's result and the launch memory -/

/-- The hidden features the second region reads are what the first region's write-backs left. -/
theorem V3_v26 (c : Dev nD) :
    V3 (F := Ideal) m ρ c main_v26 = (dat0 (F := Ideal) (V1 m ρ) c).arrAt 5 cfg0.N :=
  (after1_v26 (W2 m ρ c)).trans (W2_arr m ρ c 5)

/-- The second region's aggregated input is the aggregate of the hidden features along the edges, times the scale. -/
theorem V3_v38 (c : Dev nD) :
    (V3 (F := Ideal) m ρ c main_v38 : S50000x64.Idx → EReal)
      = mulf (F := Ideal) (s := S50000x64) (φ := .f32)
          (agg (m ((c.tc : Thread nD τ).loc main_arg1)) ((dat0 (F := Ideal) (V1 m ρ) c).arrAt 5 cfg0.N))
          (inv (m ((c.tc : Thread nD τ).loc main_arg1))) :=
  after1_v38 (W2 m ρ c) _ _ (W2_arr m ρ c 5)
    ((W2_of_ne m ρ c main_v1 (by decide)).trans (W1_v1 m ρ c))
    ((W2_of_ne m ρ c main_v3 (by decide)).trans (W1_v3 m ρ c))
    ((W2_of_ne m ρ c main_v12 (by decide)).trans (W1_v12 m ρ c))

/-- The second region's bias input is the second bias as one row. -/
theorem V3_v39 (c : Dev nD) :
    (V3 (F := Ideal) m ρ c main_v39 : S1x64.Idx → EReal)
      = shapeCast S1x64 (m ((c.tc : Thread nD τ).loc main_arg6)) shapeCasts_S64_S1x64 :=
  (after1_v39 (W2 m ρ c)).trans
    (congrArg (fun x => shapeCast S1x64 x shapeCasts_S64_S1x64)
      ((W2_of_ne m ρ c main_arg6 (by decide)).trans (W1_arg6 m ρ c)))

/-- The second region's last bias input is the final linear map's bias as one row. -/
theorem V3_v40 (c : Dev nD) :
    (V3 (F := Ideal) m ρ c main_v40 : S1x2.Idx → EReal)
      = shapeCast S1x2 (m ((c.tc : Thread nD τ).loc main_arg9)) shapeCasts_S2_S1x2 :=
  (after1_v40 (W2 m ρ c)).trans
    (congrArg (fun x => shapeCast S1x2 x shapeCasts_S2_S1x2)
      ((W2_of_ne m ρ c main_arg9 (by decide)).trans (W1_arg9 m ρ c)))

/-- Neither stretch nor the first region writes the second layer's weight on the aggregate. -/
theorem V3_arg5 (c : Dev nD) : V3 (F := Ideal) m ρ c main_arg5 = m ((c.tc : Thread nD τ).loc main_arg5) :=
  (after1_arg5 (W2 m ρ c)).trans ((W2_of_ne m ρ c main_arg5 (by decide)).trans (W1_arg5 m ρ c))

/-- Neither stretch nor the first region writes the second layer's weight on the node's own row. -/
theorem V3_arg7 (c : Dev nD) : V3 (F := Ideal) m ρ c main_arg7 = m ((c.tc : Thread nD τ).loc main_arg7) :=
  (after1_arg7 (W2 m ρ c)).trans ((W2_of_ne m ρ c main_arg7 (by decide)).trans (W1_arg7 m ρ c))

/-- Neither stretch nor the first region writes the final linear map's weight. -/
theorem V3_arg8 (c : Dev nD) : V3 (F := Ideal) m ρ c main_arg8 = m ((c.tc : Thread nD τ).loc main_arg8) :=
  (after1_arg8 (W2 m ρ c)).trans ((W2_of_ne m ρ c main_arg8 (by decide)).trans (W1_arg8 m ρ c))

end Cert.KernelIdeal.HostValue

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Spec.lean ====
/-
  Two rounds of neighbourhood averaging on a graph of 50000 nodes, each followed by an affine map and a
  clamp at zero, then a linear read-out to two values per node — stated entry by entry over the extended reals.

  A round takes node features h (50000 rows of 64). Its neighbourhood part is an array of the same shape, an
  aggregate S of h over the edges (how the edges select and add rows is the same on both sides of the claim and is
  carried as ONE function, never opened), divided row by row by max(count, 1) where count is the number of edges
  ending at the node. The round's result at (p, q) is

      max( Σ_k mean(p, k) · Wl(k, q)  +  b(q)  +  Σ_k h(p, k) · Wr(k, q) ,  0 ).

  The read-out at (p, q) is Σ_k h2(p, k) · Wlin(k, q) + blin(q).

  The bias enters either as a vector of 64 entries or as a row [1, 64] (the vector reshaped); both forms are stated, and
  `layerRow_cast` / `readoutRow_cast` identify them.
-/
import Idealize.ShloMosaic.PureOps.Ideal
import Idealize.ShloMosaic.Lib.ValueIdx
import Idealize.ShloMosaic.Lib.Pipeline.Value
import proofs.«136047_j14465449853060_1_alg».proof.Proof.LibRowCast

noncomputable section

namespace Cert.Sage

open Idealize.ShloMosaic Idealize.ShloMosaic.ValueIdx

abbrev NodeFeat : Shape := ⟨2, ![50000, 64]⟩
abbrev NodeOut : Shape := ⟨2, ![50000, 2]⟩
abbrev Sq : Shape := ⟨2, ![64, 64]⟩
abbrev Lin : Shape := ⟨2, ![64, 2]⟩
abbrev Row64 : Shape := ⟨2, ![1, 64]⟩
abbrev Row2 : Shape := ⟨2, ![1, 2]⟩
abbrev Vec64 : Shape := ⟨1, ![64]⟩
abbrev Vec2 : Shape := ⟨1, ![2]⟩
abbrev Nodes : Shape := ⟨1, ![50000]⟩

/-- The float words the programs spell: 0.0 and 1.0. Both sides of the claim carry the same words. -/
abbrev zeroW : EReal := Ideal.ofBits .f32 0x00000000#32
abbrev oneW : EReal := Ideal.ofBits .f32 0x3F800000#32

/-! ## The neighbourhood mean -/

/-- Entry (p, q) of the aggregate divided by the node's edge count, the count taken as at least one. -/
def meanAt (s : NodeFeat.Idx → EReal) (cnt : Nodes.Idx → EReal) (p : Fin 50000) (q : Fin 64) : EReal :=
  Ideal.div (s (ix2 p q)) (max (cnt (ix1 p)) oneW)

def mean (s : NodeFeat.Idx → EReal) (cnt : Nodes.Idx → EReal) : NodeFeat.Idx → EReal :=
  fun i => meanAt s cnt (i 0) (i 1)

theorem mean_ix2 (s : NodeFeat.Idx → EReal) (cnt : Nodes.Idx → EReal) (p : Fin 50000) (q : Fin 64) :
    mean s cnt (ix2 p q) = meanAt s cnt p q := rfl

/-! ## One round: the two products, the bias, the clamp -/

/-- Entry (p, q) of a round whose bias is a row [1, 64]. -/
def layerRowAt (a x : NodeFeat.Idx → EReal) (Wl : Sq.Idx → EReal) (b : Row64.Idx → EReal) (Wr : Sq.Idx → EReal)
    (p : Fin 50000) (q : Fin 64) : EReal :=
  max (((∑ k : Fin 64, a (ix2 p k) * Wl (ix2 k q)) + b (ix2 (0 : Fin 1) q)) + ∑ k : Fin 64, x (ix2 p k) * Wr (ix2 k q)) zeroW

def layerRow (a x : NodeFeat.Idx → EReal) (Wl : Sq.Idx → EReal) (b : Row64.Idx → EReal) (Wr : Sq.Idx → EReal) :
    NodeFeat.Idx → EReal :=
  fun i => layerRowAt a x Wl b Wr (i 0) (i 1)

theorem layerRow_ix2 (a x : NodeFeat.Idx → EReal) (Wl : Sq.Idx → EReal) (b : Row64.Idx → EReal) (Wr : Sq.Idx → EReal)
    (p : Fin 50000) (q : Fin 64) : layerRow a x Wl b Wr (ix2 p q) = layerRowAt a x Wl b Wr p q := rfl

/-- Entry (p, q) of a round whose bias is a vector of 64 entries. -/
def layerAt (a x : NodeFeat.Idx → EReal) (Wl : Sq.Idx → EReal) (b : Vec64.Idx → EReal) (Wr : Sq.Idx → EReal)
    (p : Fin 50000) (q : Fin 64) : EReal :=
  max (((∑ k : Fin 64, a (ix2 p k) * Wl (ix2 k q)) + b (ix1 q)) + ∑ k : Fin 64, x (ix2 p k) * Wr (ix2 k q)) zeroW

def layer (a x : NodeFeat.Idx → EReal) (Wl : Sq.Idx → EReal) (b : Vec64.Idx → EReal) (Wr : Sq.Idx → EReal) :
    NodeFeat.Idx → EReal :=
  fun i => layerAt a x Wl b Wr (i 0) (i 1)

theorem layer_ix2 (a x : NodeFeat.Idx → EReal) (Wl : Sq.Idx → EReal) (b : Vec64.Idx → EReal) (Wr : Sq.Idx → EReal)
    (p : Fin 50000) (q : Fin 64) : layer a x Wl b Wr (ix2 p q) = layerAt a x Wl b Wr p q := rfl

/-- A round over the bias vector reshaped to a row is the round over the vector. -/
theorem layerRow_cast (a x : NodeFeat.Idx → EReal) (Wl : Sq.Idx → EReal) (b : Vec64.Idx → EReal) (Wr : Sq.Idx → EReal)
    (h : Vec64.ShapeCasts Row64) : layerRow a x Wl (shapeCast Row64 b h) Wr = layer a x Wl b Wr := by
  funext i
  show layerRowAt a x Wl (shapeCast Row64 b h) Wr (i 0) (i 1) = layerAt a x Wl b Wr (i 0) (i 1)
  unfold layerRowAt layerAt
  rw [Cert.RowCast.shapeCast_row_apply b h (0 : Fin 1) (i 1)]

/-! ## The read-out -/

/-- Entry (p, q) of the read-out whose bias is a row [1, 2]. -/
def readoutRowAt (h : NodeFeat.Idx → EReal) (W : Lin.Idx → EReal) (b : Row2.Idx → EReal) (p : Fin 50000) (q : Fin 2) : EReal :=
  (∑ k : Fin 64, h (ix2 p k) * W (ix2 k q)) + b (ix2 (0 : Fin 1) q)

def readoutRow (h : NodeFeat.Idx → EReal) (W : Lin.Idx → EReal) (b : Row2.Idx → EReal) : NodeOut.Idx → EReal :=
  fun i => readoutRowAt h W b (i 0) (i 1)

theorem readoutRow_ix2 (h : NodeFeat.Idx → EReal) (W : Lin.Idx → EReal) (b : Row2.Idx → EReal) (p : Fin 50000) (q : Fin 2) :
    readoutRow h W b (ix2 p q) = readoutRowAt h W b p q := rfl

/-- Entry (p, q) of the read-out whose bias is a vector of 2 entries. -/
def readoutAt (h : NodeFeat.Idx → EReal) (W : Lin.Idx → EReal) (b : Vec2.Idx → EReal) (p : Fin 50000) (q : Fin 2) : EReal :=
  (∑ k : Fin 64, h (ix2 p k) * W (ix2 k q)) + b (ix1 q)

def readout (h : NodeFeat.Idx → EReal) (W : Lin.Idx → EReal) (b : Vec2.Idx → EReal) : NodeOut.Idx → EReal :=
  fun i => readoutAt h W b (i 0) (i 1)

theorem readout_ix2 (h : NodeFeat.Idx → EReal) (W : Lin.Idx → EReal) (b : Vec2.Idx → EReal) (p : Fin 50000) (q : Fin 2) :
    readout h W b (ix2 p q) = readoutAt h W b p q := rfl

theorem readoutRow_cast (h : NodeFeat.Idx → EReal) (W : Lin.Idx → EReal) (b : Vec2.Idx → EReal)
    (hc : Vec2.ShapeCasts Row2) : readoutRow h W (shapeCast Row2 b hc) = readout h W b := by
  funext i
  show readoutRowAt h W (shapeCast Row2 b hc) (i 0) (i 1) = readoutAt h W b (i 0) (i 1)
  unfold readoutRowAt readoutAt
  rw [Cert.RowCast.shapeCast_row_apply b hc (0 : Fin 1) (i 1)]

/-! ## The whole model -/

/-- The first round's features: the round over the mean of the aggregate of the input features. `A` is the aggregate over
    the edges as one function of the features, `cnt` the edge counts. -/
def hidden (A : (NodeFeat.Idx → EReal) → NodeFeat.Idx → EReal) (cnt : Nodes.Idx → EReal)
    (x : NodeFeat.Idx → EReal) (W1l : Sq.Idx → EReal) (b1 : Vec64.Idx → EReal) (W1r : Sq.Idx → EReal) : NodeFeat.Idx → EReal :=
  layer (mean (A x) cnt) x W1l b1 W1r

/-- Both rounds and the read-out. -/
def model (A : (NodeFeat.Idx → EReal) → NodeFeat.Idx → EReal) (cnt : Nodes.Idx → EReal)
    (x : NodeFeat.Idx → EReal) (W1l : Sq.Idx → EReal) (b1 : Vec64.Idx → EReal) (W1r : Sq.Idx → EReal)
    (W2l : Sq.Idx → EReal) (b2 : Vec64.Idx → EReal) (W2r : Sq.Idx → EReal) (Wlin : Lin.Idx → EReal) (blin : Vec2.Idx → EReal) :
    NodeOut.Idx → EReal :=
  readout (layer (mean (A (hidden A cnt x W1l b1 W1r)) cnt) (hidden A cnt x W1l b1 W1r) W2l b2 W2r) Wlin blin

end Cert.Sage

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.RoundOne.lean ====
/-
  The first round's blocks. The region works on 10 blocks of 5000 node rows. At a point t it loads rows
  5000·t … 5000·t + 4999 of the scaled aggregate and of the features, the two 64 × 64 weight arrays and the bias row
  whole, and stores, at row r and column q of its block,

      max( Σ_k agg(r, k) · Wl(k, q) + b(0, q) + Σ_k feat(r, k) · Wr(k, q) , 0 )

  — the two products are contractions of the blocks' 64 columns into a zero accumulator, the narrowing to 16-bit floats
  before them is the identity on the extended reals. A node row p lies in block p / 5000 at row p % 5000, so the
  blocks tile the 50000 rows and the array the region leaves is ONE function of the arrays it found: the round of the
  specification, entry by entry.
-/
import proofs.«136047_j14465449853060_1_alg».proof.Proof.Gen.KernelIdeal.Frame
import proofs.«136047_j14465449853060_1_alg».proof.Proof.Spec
import proofs.«136047_j14465449853060_1_alg».proof.Proof.LibDotRows
import proofs.«136047_j14465449853060_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.RoundOne

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Hand

/-- A product of a block of 5000 rows with a 64 × 64 array into a zero accumulator, at (p, q): the sum over the 64
    columns of the block's row p against column q of the array. -/
theorem block_times_square (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  dot_rows dot_S5000x64_S64x64_S5000x64_1_0_0_1_n_n S5000x64 S64x64 64

/-- What the body stores at row r, column q of its block, from the blocks it loaded. -/
theorem stored_at (x0 x1 : Vec Ideal S5000x64 .f32) (x2 x4 : Vec Ideal S64x64 .f32) (x3 : Vec Ideal S1x64 .f32)
    (r : Fin 5000) (q : Fin 64) :
    k0_pay1 x0 x1 x2 x4 x3 (ix2 r q)
      = max (((∑ k : Fin 64, x0 (ix2 r k) * x2 (ix2 k q)) + x3 (ix2 (0 : Fin 1) q)) + ∑ k : Fin 64, x1 (ix2 r k) * x4 (ix2 k q))
          Cert.Sage.zeroW := by
  unfold k0_pay1
  rw [maximumf_apply, addf_apply, addf_apply, block_times_square, block_times_square, shapeCast_self, shapeCast_self,
    Cert.RowBroadcast.broadcastTo_1b_ab_apply]
  rfl

/-! ## From a block to the array -/

/-- The value at row r, column q of the block at point T, once the loaded blocks are known to be the rows
    5000·T … of the arrays a and h and the whole of Wl, b, Wr: the round's entry (5000·T + r, q). -/
theorem point_value (x0 x1 : Vec Ideal S5000x64 .f32) (x2 x4 : Vec Ideal S64x64 .f32) (x3 : Vec Ideal S1x64 .f32)
    (a h : Cert.Sage.NodeFeat.Idx → EReal) (Wl Wr : Cert.Sage.Sq.Idx → EReal) (b : Cert.Sage.Row64.Idx → EReal)
    (T : Nat) (r : Fin 5000) (q : Fin 64) (hT : T * 5000 + r.val < 50000)
    (h0 : ∀ k : Fin 64, x0 (ix2 r k) = a (ix2 (⟨T * 5000 + r.val, hT⟩ : Fin 50000) k))
    (h1 : ∀ k : Fin 64, x1 (ix2 r k) = h (ix2 (⟨T * 5000 + r.val, hT⟩ : Fin 50000) k))
    (h2 : ∀ k : Fin 64, x2 (ix2 k q) = Wl (ix2 k q)) (h4 : ∀ k : Fin 64, x4 (ix2 k q) = Wr (ix2 k q))
    (h3 : x3 (ix2 (0 : Fin 1) q) = b (ix2 (0 : Fin 1) q)) :
    k0_pay1 x0 x1 x2 x4 x3 (ix2 r q) = Cert.Sage.layerRowAt a h Wl b Wr ⟨T * 5000 + r.val, hT⟩ q := by
  rw [stored_at]
  unfold Cert.Sage.layerRowAt
  simp only [h0, h1, h2, h4, h3]

theorem zero_offsets : (![0, 0] : Fin 2 → Nat) = fun _ => 0 := funext fun a => by fin_cases a <;> rfl

/-- The printed index maps over the grid: the two row-blocked inputs and the output move with the point along the rows,
    the weights and the bias row stay at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

variable (V : (c : Dev nD) → (b : Ref sig .tc) → Buf (Elt Ideal) ((c : Thread nD τ).loc b))

/-- What point t writes back is block t of the round over the arrays the region found. -/
theorem flushed_eq (c : Dev nD) (t : Fin cfg0.N) :
    (dat0 V c).flushed 5 t = ((cfg0.win 5).blk t).view.read (Elt Ideal)
      (Cert.Sage.layerRow (V c main_v24) (V c main_arg0) (V c main_arg2) (V c main_v25) (V c main_arg4)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31, e40, e41, e50, e51, ht⟩ := index_maps t
  funext j
  obtain ⟨r, q, rfl⟩ : ∃ (r : Fin 5000) (q : Fin 64), j = ix2 r q := ⟨j 0, j 1, eq_ix2 j⟩
  have hr := r.isLt
  have hT : t.val * 5000 + r.val < 50000 := by omega
  have eo : ((cfg0.win 5).blk t).view.emb (ix2 r q) = ix2 (⟨t.val * 5000 + r.val, hT⟩ : Fin 50000) q := by
    funext a; apply Fin.ext
    match a with
    | ⟨0, _⟩ => show win0_5.index t (0 : Fin 2) * 5000 + 1 * r.val = t.val * 5000 + r.val; omega
    | ⟨1, _⟩ => show win0_5.index t (1 : Fin 2) * 64 + 1 * q.val = q.val; omega
  show k0_pay1 (iblk0 V c 0 t) (iblk0 V c 1 t) (iblk0 V c 2 t) (iblk0 V c 4 t) (iblk0 V c 3 t) (ix2 r q)
      = Cert.Sage.layerRow (V c main_v24) (V c main_arg0) (V c main_arg2) (V c main_v25) (V c main_arg4)
          (((cfg0.win 5).blk t).view.emb (ix2 r q))
  rw [eo]
  refine point_value (iblk0 V c 0 t) (iblk0 V c 1 t) (iblk0 V c 2 t) (iblk0 V c 4 t) (iblk0 V c 3 t)
    (V c main_v24) (V c main_arg0) (V c main_arg2) (V c main_arg4) (V c main_v25) t.val r q hT ?_ ?_ ?_ ?_ ?_
  · intro k
    show V c main_v24 (((cfg0.win 0).blk t).view.emb (ix2 r k)) = _
    refine congrArg (V c main_v24) (funext fun a => Fin.ext ?_)
    match a with
    | ⟨0, _⟩ => show win0_0.index t (0 : Fin 2) * 5000 + 1 * r.val = t.val * 5000 + r.val; omega
    | ⟨1, _⟩ => show win0_0.index t (1 : Fin 2) * 64 + 1 * k.val = k.val; omega
  · intro k
    show V c main_arg0 (((cfg0.win 1).blk t).view.emb (ix2 r k)) = _
    refine congrArg (V c main_arg0) (funext fun a => Fin.ext ?_)
    match a with
    | ⟨0, _⟩ => show win0_1.index t (0 : Fin 2) * 5000 + 1 * r.val = t.val * 5000 + r.val; omega
    | ⟨1, _⟩ => show win0_1.index t (1 : Fin 2) * 64 + 1 * k.val = k.val; omega
  · intro k
    show V c main_arg2 (((cfg0.win 2).blk t).view.emb (ix2 k q)) = _
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  · intro k
    show V c main_arg4 (((cfg0.win 4).blk t).view.emb (ix2 k q)) = _
    refine congrArg (V c main_arg4) (funext fun a => Fin.ext ?_)
    match a with
    | ⟨0, _⟩ => show win0_4.index t (0 : Fin 2) * 64 + 1 * k.val = k.val; omega
    | ⟨1, _⟩ => show win0_4.index t (1 : Fin 2) * 64 + 1 * q.val = q.val; omega
  · show V c main_v25 (((cfg0.win 3).blk t).view.emb (ix2 (0 : Fin 1) q)) = _
    refine congrArg (V c main_v25) (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 64 + 1 * q.val = q.val; omega

/-- An index of the array lies in point t's block iff each coordinate lies in the block's range on its axis. -/
theorem mem_block (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Row p lies in the block of point p / 5000: the blocks tile the array. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < cfg0.N := by show _ < grid0.N; rw [N_0]; omega
  refine ⟨⟨(i 0).val / 5000, hN⟩, flush0_5 _, ?_⟩
  rw [mem_block]
  obtain ⟨-, -, -, -, -, -, -, -, -, -, e50, e51, -⟩ := index_maps ⟨(i 0).val / 5000, hN⟩
  have e50' : win0_5.index ⟨(i 0).val / 5000, hN⟩ (0 : Fin 2) = (i 0).val / 5000 := e50
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- THE ARRAY the first region leaves: the round over the arrays it found, entry by entry. -/
theorem value (c : Dev nD) :
    (dat0 V c).arrAt 5 cfg0.N
      = Cert.Sage.layerRow (V c main_v24) (V c main_arg0) (V c main_arg2) (V c main_v25) (V c main_arg4) :=
  (dat0 V c).arrAt_eq_of_cover 5 _ (fun t _ => flushed_eq V c t) covered

end Cert.KernelIdeal.RoundOne

end
-- ==== Proof.RoundTwo.lean ====
/-
  The second round's blocks, with the read-out fused. The region works on 10 blocks of 5000 node rows. At a point t
  it loads rows 5000·t … 5000·t + 4999 of the scaled aggregate and of the first round's features, the two 64 × 64
  weight arrays, the bias row, the 64 × 2 read-out array and its bias row whole, forms at row r and column j

      h2(r, j) = max( Σ_k agg(r, k) · Wl(k, j) + b(0, j) + Σ_k feat(r, k) · Wr(k, j) , 0 )

  and stores, at row r and column q of its block of 2 columns,  Σ_j h2(r, j) · Wlin(j, q) + blin(0, q).
  The products are contractions of 64 columns into zero accumulators; the narrowings to 16-bit floats are the
  identity on the extended reals. Node row p lies in block p / 5000 at row p % 5000, so the blocks tile the 50000
  rows and the array the region leaves is ONE function of the arrays it found: the read-out of the round, entry by entry.
-/
import proofs.«136047_j14465449853060_1_alg».proof.Proof.Gen.KernelIdeal.Frame
import proofs.«136047_j14465449853060_1_alg».proof.Proof.Spec
import proofs.«136047_j14465449853060_1_alg».proof.Proof.LibDotRows
import proofs.«136047_j14465449853060_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.RoundTwo

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Hand

/-- A product of a block of 5000 rows with a 64 × 64 array into a zero accumulator, at (p, q): the sum over the 64
    columns of the block's row p against column q of the array. -/
theorem block_times_square (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  dot_rows dot_S5000x64_S64x64_S5000x64_1_0_0_1_n_n S5000x64 S64x64 64

/-- The same against the 64 × 2 read-out array. -/
theorem block_times_readout (l : FVec Ideal S5000x64 .bf16) (r : FVec Ideal S64x2 .bf16) (p : Fin 5000) (q : Fin 2) :
    matmul dot_S5000x64_S64x2_S5000x2_1_0_0_1_n_n none l r (constant S5000x2 .f32 0x00000000#32) (ix2 p q)
      = ∑ k : Fin 64, l (ix2 p k) * r (ix2 k q) := by
  refine (Ideal.matmul_constant_zero_apply dot_S5000x64_S64x2_S5000x2_1_0_0_1_n_n none l r (ix2 p q)).trans ?_
  dot_rows dot_S5000x64_S64x2_S5000x2_1_0_0_1_n_n S5000x64 S64x2 64

/-- The round's value at row r, column j of the block, before the read-out. -/
def hiddenAt (x0 x1 : Vec Ideal S5000x64 .f32) (x2 x4 : Vec Ideal S64x64 .f32) (x3 : Vec Ideal S1x64 .f32)
    (r : Fin 5000) (j : Fin 64) : EReal :=
  max (((∑ k : Fin 64, x0 (ix2 r k) * x2 (ix2 k j)) + x3 (ix2 (0 : Fin 1) j)) + ∑ k : Fin 64, x1 (ix2 r k) * x4 (ix2 k j))
    Cert.Sage.zeroW

/-- What the body stores at row r, column q of its block, from the blocks it loaded. -/
theorem stored_at (x0 x1 : Vec Ideal S5000x64 .f32) (x2 x4 : Vec Ideal S64x64 .f32) (x3 : Vec Ideal S1x64 .f32)
    (x5 : Vec Ideal S64x2 .f32) (x6 : Vec Ideal S1x2 .f32) (r : Fin 5000) (q : Fin 2) :
    k1_pay1 x0 x1 x2 x4 x3 x5 x6 (ix2 r q)
      = (∑ j : Fin 64, hiddenAt x0 x1 x2 x4 x3 r j * x5 (ix2 j q)) + x6 (ix2 (0 : Fin 1) q) := by
  unfold k1_pay1
  simp only [shapeCast_self]
  rw [addf_apply, block_times_readout, Cert.RowBroadcast.broadcastTo_1b_ab_apply]
  refine congrArg (· + x6 (ix2 (0 : Fin 1) q)) (Finset.sum_congr rfl fun j _ => congrArg (· * x5 (ix2 j q)) ?_)
  rw [truncf_apply, maximumf_apply, addf_apply, addf_apply, block_times_square, block_times_square,
    Cert.RowBroadcast.broadcastTo_1b_ab_apply]
  rfl

/-! ## From a block to the array -/

/-- The value at row r, column q of the block at point T, once the loaded blocks are known to be the rows
    5000·T … of the arrays a and h and the whole of the weights and bias rows: the read-out of the round at
    (5000·T + r, q). -/
theorem point_value (x0 x1 : Vec Ideal S5000x64 .f32) (x2 x4 : Vec Ideal S64x64 .f32) (x3 : Vec Ideal S1x64 .f32)
    (x5 : Vec Ideal S64x2 .f32) (x6 : Vec Ideal S1x2 .f32)
    (a h : Cert.Sage.NodeFeat.Idx → EReal) (Wl Wr : Cert.Sage.Sq.Idx → EReal) (b : Cert.Sage.Row64.Idx → EReal)
    (Wlin : Cert.Sage.Lin.Idx → EReal) (blin : Cert.Sage.Row2.Idx → EReal)
    (T : Nat) (r : Fin 5000) (q : Fin 2) (hT : T * 5000 + r.val < 50000)
    (h0 : ∀ k : Fin 64, x0 (ix2 r k) = a (ix2 (⟨T * 5000 + r.val, hT⟩ : Fin 50000) k))
    (h1 : ∀ k : Fin 64, x1 (ix2 r k) = h (ix2 (⟨T * 5000 + r.val, hT⟩ : Fin 50000) k))
    (h2 : ∀ k j : Fin 64, x2 (ix2 k j) = Wl (ix2 k j)) (h4 : ∀ k j : Fin 64, x4 (ix2 k j) = Wr (ix2 k j))
    (h3 : ∀ j : Fin 64, x3 (ix2 (0 : Fin 1) j) = b (ix2 (0 : Fin 1) j))
    (h5 : ∀ j : Fin 64, x5 (ix2 j q) = Wlin (ix2 j q)) (h6 : x6 (ix2 (0 : Fin 1) q) = blin (ix2 (0 : Fin 1) q)) :
    k1_pay1 x0 x1 x2 x4 x3 x5 x6 (ix2 r q)
      = Cert.Sage.readoutRowAt (Cert.Sage.layerRow a h Wl b Wr) Wlin blin ⟨T * 5000 + r.val, hT⟩ q := by
  rw [stored_at]
  unfold Cert.Sage.readoutRowAt hiddenAt
  simp only [Cert.Sage.layerRow_ix2]
  unfold Cert.Sage.layerRowAt
  simp only [h0, h1, h2, h4, h3, h5, h6]

theorem zero_offsets : (![0, 0] : Fin 2 → Nat) = fun _ => 0 := funext fun a => by fin_cases a <;> rfl

/-- The printed index maps over the grid: the two row-blocked inputs and the output move with the point along the rows,
    the weights and the bias rows stay at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 10 :=
  (by decide +kernel : ∀ t : Fin grid1.N, _)

variable (V : (c : Dev nD) → (b : Ref sig .tc) → Buf (Elt Ideal) ((c : Thread nD τ).loc b))

/-- What point t writes back is block t of the read-out of the round over the arrays the region found. -/
theorem flushed_eq (c : Dev nD) (t : Fin cfg1.N) :
    (dat1 V c).flushed 7 t = ((cfg1.win 7).blk t).view.read (Elt Ideal)
      (Cert.Sage.readoutRow (Cert.Sage.layerRow (V c main_v38) (V c main_v26) (V c main_arg5) (V c main_v39) (V c main_arg7))
        (V c main_arg8) (V c main_v40)) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S64x64) zero_offsets,
    View.ld_unit_zero (S := S1x64) zero_offsets, View.ld_unit_zero (S := S64x2) zero_offsets,
    View.ld_unit_zero (S := S1x2) zero_offsets]
  obtain ⟨e00, e01, e10, e11, e20, e21, e30, e31, e40, e41, e50, e51, e60, e61, e70, e71, ht⟩ := index_maps t
  funext j
  obtain ⟨r, q, rfl⟩ : ∃ (r : Fin 5000) (q : Fin 2), j = ix2 r q := ⟨j 0, j 1, eq_ix2 j⟩
  have hr := r.isLt
  have hq := q.isLt
  have hT : t.val * 5000 + r.val < 50000 := by omega
  have eo : ((cfg1.win 7).blk t).view.emb (ix2 r q) = ix2 (⟨t.val * 5000 + r.val, hT⟩ : Fin 50000) q := by
    funext a; apply Fin.ext
    match a with
    | ⟨0, _⟩ => show win1_7.index t (0 : Fin 2) * 5000 + 1 * r.val = t.val * 5000 + r.val; omega
    | ⟨1, _⟩ => show win1_7.index t (1 : Fin 2) * 2 + 1 * q.val = q.val; omega
  show k1_pay1 (iblk1 V c 0 t) (iblk1 V c 1 t) (iblk1 V c 2 t) (iblk1 V c 4 t) (iblk1 V c 3 t) (iblk1 V c 5 t) (iblk1 V c 6 t) (ix2 r q)
      = Cert.Sage.readoutRow (Cert.Sage.layerRow (V c main_v38) (V c main_v26) (V c main_arg5) (V c main_v39) (V c main_arg7))
          (V c main_arg8) (V c main_v40) (((cfg1.win 7).blk t).view.emb (ix2 r q))
  rw [eo]
  refine point_value (iblk1 V c 0 t) (iblk1 V c 1 t) (iblk1 V c 2 t) (iblk1 V c 4 t) (iblk1 V c 3 t) (iblk1 V c 5 t) (iblk1 V c 6 t)
    (V c main_v38) (V c main_v26) (V c main_arg5) (V c main_arg7) (V c main_v39) (V c main_arg8) (V c main_v40)
    t.val r q hT ?_ ?_ ?_ ?_ ?_ ?_ ?_
  · intro k
    show V c main_v38 (((cfg1.win 0).blk t).view.emb (ix2 r k)) = _
    refine congrArg (V c main_v38) (funext fun a => Fin.ext ?_)
    match a with
    | ⟨0, _⟩ => show win1_0.index t (0 : Fin 2) * 5000 + 1 * r.val = t.val * 5000 + r.val; omega
    | ⟨1, _⟩ => show win1_0.index t (1 : Fin 2) * 64 + 1 * k.val = k.val; omega
  · intro k
    show V c main_v26 (((cfg1.win 1).blk t).view.emb (ix2 r k)) = _
    refine congrArg (V c main_v26) (funext fun a => Fin.ext ?_)
    match a with
    | ⟨0, _⟩ => show win1_1.index t (0 : Fin 2) * 5000 + 1 * r.val = t.val * 5000 + r.val; omega
    | ⟨1, _⟩ => show win1_1.index t (1 : Fin 2) * 64 + 1 * k.val = k.val; omega
  · intro k j
    show V c main_arg5 (((cfg1.win 2).blk t).view.emb (ix2 k j)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * j.val = j.val; omega
  · intro k j
    show V c main_arg7 (((cfg1.win 4).blk t).view.emb (ix2 k j)) = _
    refine congrArg (V c main_arg7) (funext fun a => Fin.ext ?_)
    match a with
    | ⟨0, _⟩ => show win1_4.index t (0 : Fin 2) * 64 + 1 * k.val = k.val; omega
    | ⟨1, _⟩ => show win1_4.index t (1 : Fin 2) * 64 + 1 * j.val = j.val; omega
  · intro j
    show V c main_v39 (((cfg1.win 3).blk t).view.emb (ix2 (0 : Fin 1) j)) = _
    refine congrArg (V c main_v39) (funext fun a => Fin.ext ?_)
    match a with
    | ⟨0, _⟩ => show win1_3.index t (0 : Fin 2) * 1 + 1 * (0 : Fin 1).val = (0 : Fin 1).val; omega
    | ⟨1, _⟩ => show win1_3.index t (1 : Fin 2) * 64 + 1 * j.val = j.val; omega
  · intro j
    show V c main_arg8 (((cfg1.win 5).blk t).view.emb (ix2 j q)) = _
    refine congrArg (V c main_arg8) (funext fun a => Fin.ext ?_)
    match a with
    | ⟨0, _⟩ => show win1_5.index t (0 : Fin 2) * 64 + 1 * j.val = j.val; omega
    | ⟨1, _⟩ => show win1_5.index t (1 : Fin 2) * 2 + 1 * q.val = q.val; omega
  · show V c main_v40 (((cfg1.win 6).blk t).view.emb (ix2 (0 : Fin 1) q)) = _
    refine congrArg (V c main_v40) (funext fun a => Fin.ext ?_)
    match a with
    | ⟨0, _⟩ => show win1_6.index t (0 : Fin 2) * 1 + 1 * (0 : Fin 1).val = (0 : Fin 1).val; omega
    | ⟨1, _⟩ => show win1_6.index t (1 : Fin 2) * 2 + 1 * q.val = q.val; omega

/-- An index of the array lies in point t's block iff each coordinate lies in the block's range on its axis. -/
theorem mem_block (t : Fin cfg1.N) (i : S50000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v41).slice (win1_7.rect t)).set ↔ _
  rw [View.set_slice_whole, Rect.mem_set_unit]
  exact Iff.rfl

/-- Row p lies in the block of point p / 5000: the blocks tile the array. -/
theorem covered (i : S50000x2.Idx) :
    ∃ t : Fin cfg1.N, (cfg1.win 7).flush t = true ∧ i ∈ ((cfg1.win 7).blk t).view.set := by
  have hi0 : (i 0).val < 50000 := (i 0).isLt
  have hi1 : (i 1).val < 2 := (i 1).isLt
  have hN : (i 0).val / 5000 < cfg1.N := by show _ < grid1.N; rw [N_1]; omega
  refine ⟨⟨(i 0).val / 5000, hN⟩, flush1_7 _, ?_⟩
  rw [mem_block]
  obtain ⟨-, -, -, -, -, -, -, -, -, -, -, -, -, -, e70, e71, -⟩ := index_maps ⟨(i 0).val / 5000, hN⟩
  have e70' : win1_7.index ⟨(i 0).val / 5000, hN⟩ (0 : Fin 2) = (i 0).val / 5000 := e70
  intro a
  match a with
  | ⟨0, _⟩ =>
    show win1_7.index ⟨(i 0).val / 5000, hN⟩ (0 : Fin 2) * 5000 ≤ (i 0).val
      ∧ (i 0).val < win1_7.index ⟨(i 0).val / 5000, hN⟩ (0 : Fin 2) * 5000 + 5000
    omega
  | ⟨1, _⟩ =>
    show win1_7.index ⟨(i 0).val / 5000, hN⟩ (1 : Fin 2) * 2 ≤ (i 1).val
      ∧ (i 1).val < win1_7.index ⟨(i 0).val / 5000, hN⟩ (1 : Fin 2) * 2 + 2
    omega

/-- THE ARRAY the second region leaves: the read-out of the round over the arrays it found, entry by entry. -/
theorem value (c : Dev nD) :
    (dat1 V c).arrAt 7 cfg1.N
      = Cert.Sage.readoutRow (Cert.Sage.layerRow (V c main_v38) (V c main_v26) (V c main_arg5) (V c main_v39) (V c main_arg7))
          (V c main_arg8) (V c main_v40) :=
  (dat1 V c).arrAt_eq_of_cover 7 _ (fun t _ => flushed_eq V c t) covered

end Cert.KernelIdeal.RoundTwo

end
-- ==== Proof.Algebra.lean ====
/-
  The one law that joins the two programs: the kernel's host lines SCALE the aggregate by the reciprocal
  1 / max(count, 1), the reference DIVIDES it by max(count, 1). On the extended reals a quotient by a divisor that
  is not zero is the product with the divisor's inverse, and 1 / c is that inverse; max(count, 1) is at least 1,
  so it is not zero whatever the count is (an infinite count included: both sides are then the product with 0).
  No finiteness of the aggregate is needed.
-/
import proofs.«136047_j14465449853060_1_alg».proof.Proof.Spec
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

abbrev Col : Shape := ⟨2, ![50000, 1]⟩
abbrev Scalar0 : Shape := ⟨0, ![]⟩

/-- The word 0x3F800000 is the real number one. -/
theorem oneW_eq : oneW = 1 := by
  simp [oneW, Ideal.ofBits, Ideal.ieee]
  rw [← EReal.coe_mul, ← EReal.coe_one]
  exact congrArg _ (by norm_num)

/-- a · (1 / c) = a / c at c = max(n, 1), for every extended real a and n. -/
theorem mul_one_div_max (a n : EReal) : a * Ideal.div oneW (max n oneW) = Ideal.div a (max n oneW) := by
  have hc : max n oneW ≠ 0 := by
    rw [oneW_eq]; exact (lt_of_lt_of_le zero_lt_one (le_max_right n 1)).ne'
  unfold Ideal.div
  rw [if_neg hc, if_neg hc, oneW_eq, one_mul]

/-- A per-node vector broadcast to a column [50000, 1] and then along the 64 features reads, at (p, q), the node's entry. -/
theorem bcast_nodes_apply (v : Nodes.Idx → EReal) (h1 : Nodes.BroadcastsInDim Col ![0])
    (h2 : Col.BroadcastsInDim NodeFeat ![0, 1]) (p : Fin 50000) (q : Fin 64) :
    broadcastInDim NodeFeat ![0, 1] h2 (broadcastInDim Col ![0] h1 v) (ix2 p q) = v (ix1 p) := by
  rw [broadcastInDim_apply ![0, 1] h2 _ (ix2 p q) (ix2 p (0 : Fin 1)) (fun a => match a with
      | ⟨0, _⟩ => by show p.val = if (50000 : Nat) = 1 then 0 else p.val; rw [if_neg (by decide)]
      | ⟨1, _⟩ => by show 0 = if (1 : Nat) = 1 then 0 else q.val; rw [if_pos rfl]),
    broadcastInDim_apply ![0] h1 v (ix2 p (0 : Fin 1)) (ix1 p) (fun a => match a with
      | ⟨0, _⟩ => by show p.val = if (50000 : Nat) = 1 then 0 else p.val; rw [if_neg (by decide)])]

/-- The aggregate scaled by the broadcast reciprocal of max(count, 1) is the mean of the specification. -/
theorem scaled_eq_mean (s : FVec Ideal NodeFeat .f32) (cnt : FVec Ideal Nodes .f32)
    (h0 : Scalar0.BroadcastsInDim Nodes ![]) (h1 : Nodes.BroadcastsInDim Col ![0])
    (h2 : Col.BroadcastsInDim NodeFeat ![0, 1]) :
    mulf s (broadcastInDim NodeFeat ![0, 1] h2 (broadcastInDim Col ![0] h1
      (Host.divf (broadcastInDim Nodes ![] h0 (constant (F := Ideal) Scalar0 .f32 0x3F800000#32))
        (maximumf cnt (broadcastInDim Nodes ![] h0 (constant (F := Ideal) Scalar0 .f32 0x3F800000#32))))))
      = mean s cnt := by
  funext i
  obtain ⟨p, q, rfl⟩ : ∃ (p : Fin 50000) (q : Fin 64), i = ix2 p q := ⟨i 0, i 1, eq_ix2 i⟩
  rw [mulf_apply, bcast_nodes_apply]
  show s (ix2 p q) * Ideal.div (broadcastInDim Nodes ![] h0 (constant (F := Ideal) Scalar0 .f32 0x3F800000#32) (ix1 p))
      (max (cnt (ix1 p)) (broadcastInDim Nodes ![] h0 (constant (F := Ideal) Scalar0 .f32 0x3F800000#32) (ix1 p)))
    = meanAt s cnt p q
  rw [broadcastInDim_apply ![] h0 _ (ix1 p) ix0 (fun a => a.elim0)]
  exact mul_one_div_max _ _

end Cert.Sage

end
-- ==== Proof.RefModel.lean ====
/-
  The reference program read as the shared entry-by-entry model.

  The reference computes, stage by stage over whole arrays: the aggregate of the features over the edges, its
  quotient by max(count, 1), two matrix products, a bias and a clamp at zero; the same again on the result; and a
  last matrix product plus bias. Each stage read at an index (p, q) is the corresponding term of the model, so the
  last stage is the model as a function of the ten arguments. The edges enter only through the aggregate `agg` and
  the count `cnt`, which are never opened: the second round's edge stages are the same terms as the first round's.
-/
import proofs.«136047_j14465449853060_1_alg».proof.Proof.Gen.ReferenceIdeal.Read
import proofs.«136047_j14465449853060_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The aggregate over the edges as one function of the features: rows gathered at the edge sources, added at the edge targets. -/
def agg (e : (⟨S2x800000, .i32⟩ : BufTy).Contents (Elt Ideal)) (h : (⟨S50000x64, .f32⟩ : BufTy).Contents (Elt Ideal)) : (⟨S50000x64, .f32⟩ : BufTy).Contents (Elt Ideal) :=
  Host.scatterAdd (F := Ideal) (φ := .f32) scatter_S50000x64_S800000x1_S800000x64_1_0_0_1 (val_main_v11 (F := Ideal)) (val_main_v12 (F := Ideal) e)
    (Host.gather gather_S50000x64_S800000x1_S800000x64_1_0_n_n_0_1_164 h (val_main_v9 (F := Ideal) e))
/-- The number of edges ending at each node. -/
def cnt (e : (⟨S2x800000, .i32⟩ : BufTy).Contents (Elt Ideal)) : (⟨S50000, .f32⟩ : BufTy).Contents (Elt Ideal) := val_main_v17 (F := Ideal) e

/-! ## Index functions at coordinates -/

/-- The left operand of a product of [50000, 64] by [64, n] at output (p, q) and contraction index k is read at (p, k). -/
theorem lidx_v23 (p : Fin 50000) (q k : Fin 64) : lidx_main_v23 (ix2 p q) k = ix2 p k := by
  funext a; match a with | ⟨0, _⟩ => rfl | ⟨1, _⟩ => rfl
/-- The right operand is read at (k, q). -/
theorem ridx_v23 (p : Fin 50000) (q k : Fin 64) : ridx_main_v23 (ix2 p q) k = ix2 k q := by
  funext a; match a with | ⟨0, _⟩ => rfl | ⟨1, _⟩ => rfl
theorem lidx_v27 (p : Fin 50000) (q k : Fin 64) : lidx_main_v27 (ix2 p q) k = ix2 p k := by
  funext a; match a with | ⟨0, _⟩ => rfl | ⟨1, _⟩ => rfl
theorem ridx_v27 (p : Fin 50000) (q k : Fin 64) : ridx_main_v27 (ix2 p q) k = ix2 k q := by
  funext a; match a with | ⟨0, _⟩ => rfl | ⟨1, _⟩ => rfl
theorem lidx_v49 (p : Fin 50000) (q k : Fin 64) : lidx_main_v49 (ix2 p q) k = ix2 p k := by
  funext a; match a with | ⟨0, _⟩ => rfl | ⟨1, _⟩ => rfl
theorem ridx_v49 (p : Fin 50000) (q k : Fin 64) : ridx_main_v49 (ix2 p q) k = ix2 k q := by
  funext a; match a with | ⟨0, _⟩ => rfl | ⟨1, _⟩ => rfl
theorem lidx_v53 (p : Fin 50000) (q k : Fin 64) : lidx_main_v53 (ix2 p q) k = ix2 p k := by
  funext a; match a with | ⟨0, _⟩ => rfl | ⟨1, _⟩ => rfl
theorem ridx_v53 (p : Fin 50000) (q k : Fin 64) : ridx_main_v53 (ix2 p q) k = ix2 k q := by
  funext a; match a with | ⟨0, _⟩ => rfl | ⟨1, _⟩ => rfl
theorem lidx_v56 (p : Fin 50000) (q : Fin 2) (k : Fin 64) : lidx_main_v56 (ix2 p q) k = ix2 p k := by
  funext a; match a with | ⟨0, _⟩ => rfl | ⟨1, _⟩ => rfl
theorem ridx_v56 (p : Fin 50000) (q : Fin 2) (k : Fin 64) : ridx_main_v56 (ix2 p q) k = ix2 k q := by
  funext a; match a with | ⟨0, _⟩ => rfl | ⟨1, _⟩ => rfl

/-- A vector of 64 entries made a row and repeated down 50000 rows reads, at (p, q), entry q. -/
theorem idx_v25_v24 (p : Fin 50000) (q : Fin 64) : idx_main_v24 (idx_main_v25 (ix2 p q)) = ix1 q := by
  funext a; match a with | ⟨0, _⟩ => rfl
theorem idx_v51_v50 (p : Fin 50000) (q : Fin 64) : idx_main_v50 (idx_main_v51 (ix2 p q)) = ix1 q := by
  funext a; match a with | ⟨0, _⟩ => rfl
theorem idx_v58_v57 (p : Fin 50000) (q : Fin 2) : idx_main_v57 (idx_main_v58 (ix2 p q)) = ix1 q := by
  funext a; match a with | ⟨0, _⟩ => rfl
/-- A vector of 50000 entries made a column and repeated across 64 columns reads, at (p, q), entry p. -/
theorem idx_v21_v20 (p : Fin 50000) (q : Fin 64) : idx_main_v20 (idx_main_v21 (ix2 p q)) = ix1 p := by
  funext a; match a with | ⟨0, _⟩ => rfl
theorem idx_v47_v46 (p : Fin 50000) (q : Fin 64) : idx_main_v46 (idx_main_v47 (ix2 p q)) = ix1 p := by
  funext a; match a with | ⟨0, _⟩ => rfl

/-! ## The first round -/

/-- The first aggregate stage is the aggregate of the input features. -/
theorem v13_eq (x0 : (⟨S50000x64, .f32⟩ : BufTy).Contents (Elt Ideal)) (x1 : (⟨S2x800000, .i32⟩ : BufTy).Contents (Elt Ideal)) :
    val_main_v13 (F := Ideal) x0 x1 = agg x1 x0 := rfl

/-- The quotient stage at (p, q) is the neighbourhood mean there. -/
theorem mean1_at (x0 : (⟨S50000x64, .f32⟩ : BufTy).Contents (Elt Ideal)) (x1 : (⟨S2x800000, .i32⟩ : BufTy).Contents (Elt Ideal))
    (p : Fin 50000) (q : Fin 64) :
    val_main_v22 (F := Ideal) x0 x1 (ix2 p q) = Cert.Sage.mean (agg x1 x0) (cnt x1) (ix2 p q) := by
  rw [val_main_v22_apply, val_main_v21_apply, val_main_v20_apply, val_main_v19_apply, val_main_v18_apply,
    val_main_cst_3_apply, idx_v21_v20, v13_eq]
  rfl

/-- The first round's result at (p, q): the two products over the mean and over the features, the bias, the clamp. -/
theorem hidden_at (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (p : Fin 50000) (q : Fin 64) :
    val_main_v29 (F := Ideal) x0 x1 x2 x3 x4 (ix2 p q)
      = Cert.Sage.layerAt (Cert.Sage.mean (agg x1 x0) (cnt x1)) x0 x2 x3 x4 p q := by
  rw [val_main_v29_apply, val_main_v28_apply, val_main_v26_apply, val_main_v23_apply, val_main_v27_apply,
    val_main_v25_apply, val_main_v24_apply, val_main_call0_v0_apply, val_main_call0_cst_apply, idx_v25_v24]
  simp only [lidx_v23, ridx_v23, lidx_v27, ridx_v27, mean1_at]
  rfl

/-- The first round's stage is the model's first round. -/
theorem hidden_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v29 (F := Ideal) x0 x1 x2 x3 x4 = Cert.Sage.hidden (agg x1) (cnt x1) x0 x2 x3 x4 := by
  funext i
  obtain ⟨p, q, rfl⟩ : ∃ (p : Fin 50000) (q : Fin 64), i = ix2 p q := ⟨i 0, i 1, eq_ix2 i⟩
  rw [hidden_at]
  rfl

/-! ## The second round -/

/-- The second round's edge stages are the first round's: the same terms under other names. -/
theorem v35_eq (x1 : (⟨S2x800000, .i32⟩ : BufTy).Contents (Elt Ideal)) : val_main_v35 (F := Ideal) x1 = val_main_v9 (F := Ideal) x1 := rfl
theorem v37_eq : val_main_v37 (F := Ideal) = val_main_v11 (F := Ideal) := rfl
theorem v38_eq (x1 : (⟨S2x800000, .i32⟩ : BufTy).Contents (Elt Ideal)) : val_main_v38 (F := Ideal) x1 = val_main_v12 (F := Ideal) x1 := rfl
theorem v43_eq (x1 : (⟨S2x800000, .i32⟩ : BufTy).Contents (Elt Ideal)) : val_main_v43 (F := Ideal) x1 = cnt x1 := rfl

/-- The second aggregate stage is the aggregate of the first round's result. -/
theorem v39_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v39 (F := Ideal) x0 x1 x2 x3 x4 = agg x1 (val_main_v29 (F := Ideal) x0 x1 x2 x3 x4) := by
  unfold val_main_v39 val_main_v36 agg
  rw [v35_eq, v37_eq, v38_eq]

/-- The second quotient stage at (p, q) is the neighbourhood mean of the first round's result. -/
theorem mean2_at (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (p : Fin 50000) (q : Fin 64) :
    val_main_v48 (F := Ideal) x0 x1 x2 x3 x4 (ix2 p q)
      = Cert.Sage.mean (agg x1 (val_main_v29 (F := Ideal) x0 x1 x2 x3 x4)) (cnt x1) (ix2 p q) := by
  rw [val_main_v48_apply, val_main_v47_apply, val_main_v46_apply, val_main_v45_apply, val_main_v44_apply,
    val_main_cst_9_apply, idx_v47_v46, v39_eq, v43_eq]
  rfl

/-- The second round's result at (p, q). -/
theorem layer2_at (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) (p : Fin 50000) (q : Fin 64) :
    val_main_v55 (F := Ideal) x0 x1 x2 x3 x4 x5 x6 x7 (ix2 p q)
      = Cert.Sage.layerAt (Cert.Sage.mean (agg x1 (val_main_v29 (F := Ideal) x0 x1 x2 x3 x4)) (cnt x1))
          (val_main_v29 (F := Ideal) x0 x1 x2 x3 x4) x5 x6 x7 p q := by
  rw [val_main_v55_apply, val_main_v54_apply, val_main_v52_apply, val_main_v49_apply, val_main_v53_apply,
    val_main_v51_apply, val_main_v50_apply, val_main_call1_v0_apply, val_main_call1_cst_apply, idx_v51_v50]
  simp only [lidx_v49, ridx_v49, lidx_v53, ridx_v53, mean2_at]
  rfl

/-- The second round's stage is the model's second round over the first. -/
theorem layer2_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v55 (F := Ideal) x0 x1 x2 x3 x4 x5 x6 x7
      = Cert.Sage.layer (Cert.Sage.mean (agg x1 (Cert.Sage.hidden (agg x1) (cnt x1) x0 x2 x3 x4)) (cnt x1))
          (Cert.Sage.hidden (agg x1) (cnt x1) x0 x2 x3 x4) x5 x6 x7 := by
  funext i
  obtain ⟨p, q, rfl⟩ : ∃ (p : Fin 50000) (q : Fin 64), i = ix2 p q := ⟨i 0, i 1, eq_ix2 i⟩
  rw [layer2_at, hidden_eq]
  rfl

/-! ## The read-out -/

theorem readout_at (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64x2, .f32⟩ : BufTy).Contents (Elt Ideal))
    (x9 : (⟨S2, .f32⟩ : BufTy).Contents (Elt Ideal)) (p : Fin 50000) (q : Fin 2) :
    val_main_v59 (F := Ideal) x0 x1 x2 x3 x4 x5 x6 x7 x8 x9 (ix2 p q)
      = Cert.Sage.readoutAt (val_main_v55 (F := Ideal) x0 x1 x2 x3 x4 x5 x6 x7) x8 x9 p q := by
  rw [val_main_v59_apply, val_main_v56_apply, val_main_v58_apply, val_main_v57_apply, idx_v58_v57]
  simp only [lidx_v56, ridx_v56]
  rfl

/-- The reference's result is the model of its ten arguments. -/
theorem ref_model (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x2, .f32⟩ : BufTy).Contents (Elt Ideal)) (x9 : (⟨S2, .f32⟩ : BufTy).Contents (Elt Ideal)) :
    val_main_v59 (F := Ideal) x0 x1 x2 x3 x4 x5 x6 x7 x8 x9 = Cert.Sage.model (agg x1) (cnt x1) x0 x2 x3 x4 x5 x6 x7 x8 x9 := by
  funext i
  obtain ⟨p, q, rfl⟩ : ∃ (p : Fin 50000) (q : Fin 2), i = ix2 p q := ⟨i 0, i 1, eq_ix2 i⟩
  rw [readout_at, layer2_eq]
  rfl

end Cert.ReferenceIdeal.RefValue

end
-- ==== Proof.Final.lean ====
/-
  The kernel program's result as the model of the specification.

  The result buffer ends holding what the second region's write-backs leave. That array is the read-out of the
  second round over the arrays the region found; those are the second stretch of host lines applied to what the
  first region left — the first round over what the first stretch of host lines computed from the arguments. Each
  host stretch scales the aggregate over the edges by the broadcast reciprocal of max(count, 1), which is the
  neighbourhood mean; each bias row is the bias vector reshaped. Put together, the result is the model over the
  kernel program's own aggregate and count functions, and those are the reference's: the same gather, the same
  two scatter-adds, the same index columns cut from the edge list.
-/
import proofs.«136047_j14465449853060_1_alg».proof.Proof.KRun
import proofs.«136047_j14465449853060_1_alg».proof.Proof.KHost
import proofs.«136047_j14465449853060_1_alg».proof.Proof.RoundOne
import proofs.«136047_j14465449853060_1_alg».proof.Proof.RoundTwo
import proofs.«136047_j14465449853060_1_alg».proof.Proof.Algebra
import proofs.«136047_j14465449853060_1_alg».proof.Proof.RefModel

noncomputable section

namespace Cert.KernelIdeal.Result

open Cert.KernelIdeal Cert.KernelIdeal.Gen Cert.KernelIdeal.HostValue Idealize.ShloMosaic Idealize.ShloMosaic.TcCoe Idealize.SL.Sem

variable (m : (ℓ : Loc nD τ sig) → Buf (Elt Ideal) ℓ) (ρ : Dev nD → PrngReg)

/-- The model over the kernel program's aggregate and count of the edge list, at the launch contents of the arguments. -/
def result (c : Dev nD) : Cert.Sage.NodeOut.Idx → EReal :=
  Cert.Sage.model (agg (m ((c.tc : Thread nD τ).loc main_arg1))) (cnt (m ((c.tc : Thread nD τ).loc main_arg1)))
    (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))

/-- What the second region's write-backs leave in the result buffer is the model. -/
theorem value (c : Dev nD) : W4 (F := Ideal) m ρ c (Proc.devRef .tc main_v41) = result m c := by
  refine (W4_arr m ρ c 7).trans ?_
  rw [Cert.KernelIdeal.RoundTwo.value (V3 m ρ) c, V3_v38, V3_v26, V3_arg5, V3_v39, V3_arg7, V3_arg8, V3_v40,
    Cert.KernelIdeal.RoundOne.value (V1 m ρ) c, V1_v24, V1_v25, V1_arg0, V1_arg2, V1_arg4,
    Cert.Sage.layerRow_cast, Cert.Sage.layerRow_cast, Cert.Sage.readoutRow_cast]
  unfold Cert.KernelIdeal.HostValue.inv
  rw [Cert.Sage.scaled_eq_mean, Cert.Sage.scaled_eq_mean]
  rfl

/-- Every fair execution of the kernel program ends with the result buffer at the model and the arguments unchanged. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (run_named (F := Ideal) m ρ)

/-- The two programs aggregate over the edges by the same function … -/
theorem agg_same : (agg : _ → _ → Cert.Sage.NodeFeat.Idx → EReal) = Cert.ReferenceIdeal.RefValue.agg := by
  funext e h
  rfl

/-- … and count the edges ending at a node by the same function. -/
theorem cnt_same : (cnt : _ → Cert.Sage.Nodes.Idx → EReal) = Cert.ReferenceIdeal.RefValue.cnt := by
  funext e
  rfl

end Cert.KernelIdeal.Result

end
-- ==== Proof.lean ====
/-
  The claim: the kernel program as printed and as idealized each run to the end without a fault and leave their
  arguments as launched, the reference does the same, and at the exact values the idealized kernel and the reference
  end with the same array of 50000 × 2 results.

  Both programs compute a two-round graph convolution with mean aggregation and a linear read-out (the
  specification: Proof/Spec.lean). The kernel program scales each aggregate by the reciprocal of max(count, 1) where
  the reference divides by it — one function on the extended reals (Proof/Algebra.lean) — and computes each round on
  ten blocks of 5000 rows where the reference uses whole-array products (Proof/RoundOne.lean, Proof/RoundTwo.lean);
  the gather and the scatter-adds over the edge list are the same on both sides and are never opened. The ideal
  pass rewrote nothing, so the idealization is the program's own text.
-/
import proofs.«136047_j14465449853060_1_alg».proof.Defs
import proofs.«136047_j14465449853060_1_alg».proof.Proof.Gen.Kernel
import proofs.«136047_j14465449853060_1_alg».proof.Proof.Gen.Kernel.Skeleton
import proofs.«136047_j14465449853060_1_alg».proof.Proof.Gen.Kernel.Launch
import proofs.«136047_j14465449853060_1_alg».proof.Proof.Gen.Kernel.Points
import proofs.«136047_j14465449853060_1_alg».proof.Proof.Gen.Kernel.Frame
import proofs.«136047_j14465449853060_1_alg».proof.Proof.Gen.KernelIdeal
import proofs.«136047_j14465449853060_1_alg».proof.Proof.Gen.KernelIdeal.Skeleton
import proofs.«136047_j14465449853060_1_alg».proof.Proof.Gen.KernelIdeal.Launch
import proofs.«136047_j14465449853060_1_alg».proof.Proof.Gen.KernelIdeal.Points
import proofs.«136047_j14465449853060_1_alg».proof.Proof.Gen.KernelIdeal.Frame
import proofs.«136047_j14465449853060_1_alg».proof.Proof.Gen.ReferenceIdeal
import proofs.«136047_j14465449853060_1_alg».proof.Proof.Gen.ReferenceIdeal.Run
import proofs.«136047_j14465449853060_1_alg».proof.Proof.Gen.ReferenceIdeal.Read
import proofs.«136047_j14465449853060_1_alg».proof.Proof.Gen.Pre_finite_inputs
import proofs.«136047_j14465449853060_1_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end at the model over the same aggregate and count of the same edge list and the same arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v59_eq, Cert.ReferenceIdeal.RefValue.ref_model, a0, a1, a2, a3, a4, a5, a6, a7, a8, a9,
    ← Cert.KernelIdeal.Result.agg_same, ← Cert.KernelIdeal.Result.cnt_same]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
